-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S256x64 .f32) (main_arg9 : FVec F S64 .f32) (main_arg10 : FVec F S256x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg10
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  main_v33

def fn {F : FTy → Type} [FloatOps F] (main_arg0 : FVec F S1000000x128 .f32) (main_arg1 : IVec S1250000 32) (main_arg2 : IVec S1250000 32) (main_arg3 : IVec S40960 32) (main_arg4 : IVec S40960 32) (main_arg5 : FVec F S128x256 .f32) (main_arg6 : FVec F S256 .f32) (main_arg7 : FVec F S128x256 .f32) (main_arg8 : FVec F S256x64 .f32) (main_arg9 : FVec F S64 .f32) (main_arg10 : FVec F S256x64 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg8 main_arg9 main_arg10 main_v13 main_v16
-- ==== Kernel.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1250000x1 : Shape := ⟨2, ![1250000, 1]⟩
abbrev S1250000x128 : Shape := ⟨2, ![1250000, 128]⟩
abbrev S50000x128 : Shape := ⟨2, ![50000, 128]⟩
abbrev S50000 : Shape := ⟨1, ![50000]⟩
abbrev S50000x1 : Shape := ⟨2, ![50000, 1]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S1x256 : Shape := ⟨2, ![1, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S4096x64 : Shape := ⟨2, ![4096, 64]⟩
abbrev S2048x256 : Shape := ⟨2, ![2048, 256]⟩
abbrev S2048x1 : Shape := ⟨2, ![2048, 1]⟩
abbrev S2048x64 : Shape := ⟨2, ![2048, 64]⟩
abbrev S1x64 : Shape := ⟨2, ![1, 64]⟩
abbrev S2048 : Shape := ⟨1, ![2048]⟩

abbrev nBuf : Space → Nat
  | .hbm => 57
  | .vmem => 22
  | .smem => 0
  | _ => 0

abbrev bufTy : (tb : Table) → Fin (tcTables nBuf tb) → BufTy
  | .hbm, ⟨0, _⟩ => ⟨S1000000x128, .f32⟩
  | .hbm, ⟨1, _⟩ => ⟨S1250000, .i32⟩
  | .hbm, ⟨2, _⟩ => ⟨S1250000, .i32⟩
  | .hbm, ⟨3, _⟩ => ⟨S40960, .i32⟩
  | .hbm, ⟨4, _⟩ => ⟨S40960, .i32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S1000000x128, .bf16⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x128, .bf16⟩
  | .hbm, ⟨21, _⟩ => ⟨S1250000x128, .f32⟩
  | .hbm, ⟨22, _⟩ => ⟨S_, .f32⟩
  | .hbm, ⟨23, _⟩ => ⟨S50000x128, .f32⟩
  | .hbm, ⟨24, _⟩ => ⟨S1250000x1, .i32⟩
  | .hbm, ⟨25, _⟩ => ⟨S50000x128, .f32⟩
  | .hbm, ⟨26, _⟩ => ⟨S_, .f32⟩
  | .hbm, ⟨27, _⟩ => ⟨S1250000, .f32⟩
  | .hbm, ⟨28, _⟩ => ⟨S_, .f32⟩
  | .hbm, ⟨29, _⟩ => ⟨S50000, .f32⟩
  | .hbm, ⟨30, _⟩ => ⟨S1250000x1, .i32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x256, .f32⟩
  | .hbm, ⟨35, _⟩ => ⟨S_, .i32⟩
  | .hbm, ⟨36, _⟩ => ⟨S40960, .i32⟩
  | .hbm, ⟨37, _⟩ => ⟨S40960, .i1⟩
  | .hbm, ⟨38, _⟩ => ⟨S_, .i32⟩
  | .hbm, ⟨39, _⟩ => ⟨S40960, .i32⟩
  | .hbm, ⟨40, _⟩ => ⟨S40960, .i32⟩
  | .hbm, ⟨41, _⟩ => ⟨S40960, .i32⟩
  | .hbm, ⟨42, _⟩ => ⟨S40960x1, .i32⟩
  | .hbm, ⟨43, _⟩ => ⟨S40960x256, .f32⟩
  | .hbm, ⟨44, _⟩ => ⟨S_, .f32⟩
  | .hbm, ⟨45, _⟩ => ⟨S4096x256, .f32⟩
  | .hbm, ⟨46, _⟩ => ⟨S40960x1, .i32⟩
  | .hbm, ⟨47, _⟩ => ⟨S4096x256, .f32⟩
  | .hbm, ⟨48, _⟩ => ⟨S_, .f32⟩
  | .hbm, ⟨49, _⟩ => ⟨S40960, .f32⟩
  | .hbm, ⟨50, _⟩ => ⟨S_, .f32⟩
  | .hbm, ⟨51, _⟩ => ⟨S4096, .f32⟩
  | .hbm, ⟨52, _⟩ => ⟨S40960x1, .i32⟩
  | .hbm, ⟨53, _⟩ => ⟨S4096, .f32⟩
  | .hbm, ⟨54, _⟩ => ⟨S4096x1, .f32⟩
  | .hbm, ⟨55, _⟩ => ⟨S4096x256, .f32⟩
  | .hbm, ⟨56, _⟩ => ⟨S4096x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x256, .f32⟩
  | .local _ .vmem, ⟨7, _⟩ => ⟨S256, .f32⟩
  | .local _ .vmem, ⟨8, _⟩ => ⟨S128x256, .f32⟩
  | .local _ .vmem, ⟨9, _⟩ => ⟨S5000x256, .f32⟩
  | .local _ .vmem, ⟨10, _⟩ => ⟨S5000x256, .f32⟩
  | .local _ .vmem, ⟨11, _⟩ => ⟨S2048x256, .f32⟩
  | .local _ .vmem, ⟨12, _⟩ => ⟨S2048x256, .f32⟩
  | .local _ .vmem, ⟨13, _⟩ => ⟨S2048x1, .f32⟩
  | .local _ .vmem, ⟨14, _⟩ => ⟨S2048x1, .f32⟩
  | .local _ .vmem, ⟨15, _⟩ => ⟨S2048x256, .f32⟩
  | .local _ .vmem, ⟨16, _⟩ => ⟨S2048x256, .f32⟩
  | .local _ .vmem, ⟨17, _⟩ => ⟨S256x64, .f32⟩
  | .local _ .vmem, ⟨18, _⟩ => ⟨S64, .f32⟩
  | .local _ .vmem, ⟨19, _⟩ => ⟨S256x64, .f32⟩
  | .local _ .vmem, ⟨20, _⟩ => ⟨S2048x64, .f32⟩
  | .local _ .vmem, ⟨21, _⟩ => ⟨S2048x64, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S1000000x128_S50000x128_0_0 : S1000000x128.Slices ![0, 0] S50000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  slices_S50000x256_S4096x256_0_0 : S50000x256.Slices ![0, 0] S4096x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  gather_S1000000x128_S1250000x1_S1250000x128_1_0_n_n_0_1_1128_wf : GatherDims.WF S1000000x128 S1250000x1 S1250000x128 [1] [0] [] [0] [] 1 ![1, 128]
  scatter_S50000x128_S1250000x1_S1250000x128_1_0_0_1_wf : ScatterDims.WF S50000x128 S1250000x1 S1250000x128 [1] [0] [0] 1
  scatter_S50000_S1250000x1_S1250000_n_0_0_1_wf : ScatterDims.WF S50000 S1250000x1 S1250000 [] [0] [0] 1
  dot_S5000x128_S128x256_S5000x256_1_0_0_1_n_n_wf : DotDims.WF S5000x128 S128x256 S5000x256 [1] [0] [0] [1] [] []
  gather_S50000x256_S40960x1_S40960x256_1_0_n_n_0_1_1256_wf : GatherDims.WF S50000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S4096x1.size a
  hwx1_1 : ∀ i : grid1.Coords, EltTy.bits .f32 = 32 ∨ (Rect.block (s := S4096x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x256.size a
  hwx1_2 : ∀ i : grid1.Coords, EltTy.bits .f32 = 32 ∨ (Rect.block (s := S4096x256) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S4096x64.size a
  hwx1_6 : ∀ i : grid1.Coords, EltTy.bits .f32 = 32 ∨ (Rect.block (s := S4096x64) S2048x64.size (cc1_transform_6 i) (hinb1_6 i)).WholeWords (EltTy.packing .f32)

variable [Facts₀]

def gather_S1000000x128_S1250000x1_S1250000x128_1_0_n_n_0_1_1128 : GatherDims S1000000x128 S1250000x1 S1250000x128 where
  offsetDims := [1]
  collapsedSliceDims := [0]
  operandBatchingDims := []
  startIndicesBatchingDims := []
  startIndexMap := [0]
  indexVectorDim := 1
  sliceSizes := ![1, 128]
  wf := gather_S1000000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S40960x1_S40960x256_1_0_n_n_0_1_1256 : GatherDims S50000x256 S40960x1 S40960x256 where
  offsetDims := [1]
  collapsedSliceDims := [0]
  operandBatchingDims := []
  startIndicesBatchingDims := []
  startIndexMap := [0]
  indexVectorDim := 1
  sliceSizes := ![1, 256]
  wf := gather_S50000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S2048x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x128 : Shape := ⟨2, ![50000, 128]⟩
abbrev S_ : Shape := ⟨0, ![]⟩
abbrev S1250000x1 : Shape := ⟨2, ![1250000, 1]⟩
abbrev S1250000x128 : Shape := ⟨2, ![1250000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1250000, .i32⟩
  | .hbm, ⟨2, _⟩ => ⟨S1250000, .i32⟩
  | .hbm, ⟨3, _⟩ => ⟨S40960, .i32⟩
  | .hbm, ⟨4, _⟩ => ⟨S40960, .i32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S50000x128, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x128, .f32⟩
  | .hbm, ⟨21, _⟩ => ⟨S_, .f32⟩
  | .hbm, ⟨22, _⟩ => ⟨S50000x128, .f32⟩
  | .hbm, ⟨23, _⟩ => ⟨S1250000x1, .i32⟩
  | .hbm, ⟨24, _⟩ => ⟨S50000x128, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S50000, .f32⟩
  | .hbm, ⟨29, _⟩ => ⟨S1250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x64, .f32⟩
  | .hbm, ⟨73, _⟩ => ⟨S1x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1, .f32⟩
  | .hbm, ⟨91, _⟩ => ⟨S4096x64, .f32⟩
  | .hbm, ⟨92, _⟩ => ⟨S4096x64, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S1000000x128_S50000x128_0_0 : S1000000x128.Slices ![0, 0] S50000x128
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x256_S4096x256_0_0 : S50000x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  gather_S1000000x128_S1250000x1_S1250000x128_1_0_n_n_0_1_1128_wf : GatherDims.WF S1000000x128 S1250000x1 S1250000x128 [1] [0] [] [0] [] 1 ![1, 128]
  scatter_S50000x128_S1250000x1_S1250000x128_1_0_0_1_wf : ScatterDims.WF S50000x128 S1250000x1 S1250000x128 [1] [0] [0] 1
  scatter_S50000_S1250000x1_S1250000_n_0_0_1_wf : ScatterDims.WF S50000 S1250000x1 S1250000 [] [0] [0] 1
  dot_S50000x128_S128x256_S50000x256_1_0_0_1_n_n_wf : DotDims.WF S50000x128 S128x256 S50000x256 [1] [0] [0] [1] [] []
  gather_S50000x256_S40960x1_S40960x256_1_0_n_n_0_1_1256_wf : GatherDims.WF S50000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x64_S4096x64_1_0_0_1_n_n_wf : DotDims.WF S4096x256 S256x64 S4096x64 [1] [0] [0] [1] [] []

variable [Facts₀]

def gather_S1000000x128_S1250000x1_S1250000x128_1_0_n_n_0_1_1128 : GatherDims S1000000x128 S1250000x1 S1250000x128 where
  offsetDims := [1]
  collapsedSliceDims := [0]
  operandBatchingDims := []
  startIndicesBatchingDims := []
  startIndexMap := [0]
  indexVectorDim := 1
  sliceSizes := ![1, 128]
  wf := gather_S1000000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S40960x1_S40960x256_1_0_n_n_0_1_1256 : GatherDims S50000x256 S40960x1 S40960x256 where
  offsetDims := [1]
  collapsedSliceDims := [0]
  operandBatchingDims := []
  startIndicesBatchingDims := []
  startIndexMap := [0]
  indexVectorDim := 1
  sliceSizes := ![1, 256]
  wf := gather_S50000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«118974_j87256555586107_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«118974_j87256555586107_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«118974_j87256555586107_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«118974_j87256555586107_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«118974_j87256555586107_2_alg».proof.Proof.LibIdealSums
import proofs.«118974_j87256555586107_2_alg».proof.Proof.LibRowReductions
import proofs.«118974_j87256555586107_2_alg».proof.Proof.LibRowVector
import proofs.«118974_j87256555586107_2_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.LibSageLayers.lean ====
/-
  One mean-aggregation graph layer on the extended reals, as a function of whole arrays.

  For r target nodes with k input features and n output features: A holds the sums of the neighbours' rows, c the
  neighbour counts (an r×1 column), X the nodes' own rows. Row p of A is divided entry by entry by c(p) joined with the
  word 3F800000 (the number one: a node without neighbours is divided by one), and the layer is

      conv A c X Wl b Wr (p, q) = (Σ_j (A(p, j) / max(c(p), 1)) · Wl(j, q) + Σ_j X(p, j) · Wr(j, q)) + b(q).

  A kernel body computes it on a block of rows, grouped as above; the reference adds the bias before the second product,
  (M₁ + b) + M₂, which is the same extended real since addition there is commutative and associative — no finiteness is
  asked. An entry depends on one row of A, c and X, so a block of rows gives the same rows of the layer. The layer
  followed by a join with the zero word (relu) and the layer followed by the logarithm of the softmax along each row
  are read the same way. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«118974_j87256555586107_2_alg».proof.Proof.LibBlockReads
import proofs.«118974_j87256555586107_2_alg».proof.Proof.LibMatProd
import proofs.«118974_j87256555586107_2_alg».proof.Proof.LibRowBlocks
import proofs.«118974_j87256555586107_2_alg».proof.Proof.LibRowReductions
import proofs.«118974_j87256555586107_2_alg».proof.Proof.LibRowVector
import proofs.«118974_j87256555586107_2_alg».proof.Proof.LibLogSoftmaxRows

open scoped BigOperators

noncomputable section

namespace Cert.Lib.SageLayers

open Idealize.ShloMosaic Idealize.ShloMosaic.ValueIdx Cert.Lib.MatProd Cert.Lib.RowBlocks Cert.Lib.RowReductions
  Cert.Lib.RowVector Cert.Lib.LogSoftmaxRows

variable {r r' k n : Nat}

/-- The word 3F800000 as an extended real: the number one. It is the same word on both sides and is never evaluated. -/
abbrev oneWord : EReal := Ideal.ofBits .f32 0x3F800000#32
/-- The zero word as an extended real. -/
abbrev zeroWord : EReal := Ideal.ofBits .f32 0x00000000#32

/-- Row p of A divided entry by entry by the count c(p, 0) joined with one. -/
def meanRows (A : (⟨2, ![r, k]⟩ : Shape).Idx → EReal) (c : (⟨2, ![r, 1]⟩ : Shape).Idx → EReal) :
    (⟨2, ![r, k]⟩ : Shape).Idx → EReal :=
  fun i => Ideal.div (A i) (max (c (ix2 (⟨(i 0).val, idx2_lt0 i⟩ : Fin r) 0)) oneWord)

theorem meanRows_apply (A : (⟨2, ![r, k]⟩ : Shape).Idx → EReal) (c : (⟨2, ![r, 1]⟩ : Shape).Idx → EReal)
    (p : Fin r) (q : Fin k) : meanRows A c (ix2 p q) = Ideal.div (A (ix2 p q)) (max (c (ix2 p 0)) oneWord) := rfl

/-- The layer before its activation. -/
def conv (A : (⟨2, ![r, k]⟩ : Shape).Idx → EReal) (c : (⟨2, ![r, 1]⟩ : Shape).Idx → EReal)
    (X : (⟨2, ![r, k]⟩ : Shape).Idx → EReal) (Wl : (⟨2, ![k, n]⟩ : Shape).Idx → EReal)
    (b : (⟨1, ![n]⟩ : Shape).Idx → EReal) (Wr : (⟨2, ![k, n]⟩ : Shape).Idx → EReal) :
    (⟨2, ![r, n]⟩ : Shape).Idx → EReal :=
  fun i => (matProd (meanRows A c) Wl i + matProd X Wr i) + b (ix1 (⟨(i 1).val, idx2_lt1 i⟩ : Fin n))

/-- An array joined entry by entry with the zero word. -/
def relu {s : Shape} (x : s.Idx → EReal) : s.Idx → EReal := fun i => max (x i) zeroWord

/-- An entry of the layer depends on one row of A, of c and of X: if row (y 0) of A', c', X' is row (i 0) of A, c, X
    and y, i have the same column, the layer of the primed arrays at y is the layer of the others at i. -/
theorem conv_rows (A : (⟨2, ![r, k]⟩ : Shape).Idx → EReal) (c : (⟨2, ![r, 1]⟩ : Shape).Idx → EReal)
    (X : (⟨2, ![r, k]⟩ : Shape).Idx → EReal)
    (A' : (⟨2, ![r', k]⟩ : Shape).Idx → EReal) (c' : (⟨2, ![r', 1]⟩ : Shape).Idx → EReal)
    (X' : (⟨2, ![r', k]⟩ : Shape).Idx → EReal)
    (Wl : (⟨2, ![k, n]⟩ : Shape).Idx → EReal) (b : (⟨1, ![n]⟩ : Shape).Idx → EReal)
    (Wr : (⟨2, ![k, n]⟩ : Shape).Idx → EReal)
    (y : (⟨2, ![r', n]⟩ : Shape).Idx) (i : (⟨2, ![r, n]⟩ : Shape).Idx)
    (hA : ∀ j : Fin k, A' (ix2 (⟨(y 0).val, idx2_lt0 y⟩ : Fin r') j) = A (ix2 (⟨(i 0).val, idx2_lt0 i⟩ : Fin r) j))
    (hc : c' (ix2 (⟨(y 0).val, idx2_lt0 y⟩ : Fin r') 0) = c (ix2 (⟨(i 0).val, idx2_lt0 i⟩ : Fin r) 0))
    (hX : ∀ j : Fin k, X' (ix2 (⟨(y 0).val, idx2_lt0 y⟩ : Fin r') j) = X (ix2 (⟨(i 0).val, idx2_lt0 i⟩ : Fin r) j))
    (hcol : (y 1).val = (i 1).val) :
    conv A' c' X' Wl b Wr y = conv A c X Wl b Wr i := by
  have h1 : matProd (meanRows A' c') Wl y = matProd (meanRows A c) Wl i :=
    matProd_rows (meanRows A c) (meanRows A' c') Wl y i
      (fun j => by rw [meanRows_apply, meanRows_apply, hA j, hc]) hcol
  have h2 : matProd X' Wr y = matProd X Wr i := matProd_rows X X' Wr y i hX hcol
  have h3 : (⟨(y 1).val, idx2_lt1 y⟩ : Fin n) = ⟨(i 1).val, idx2_lt1 i⟩ := Fin.ext hcol
  unfold conv
  rw [h1, h2, h3]

/-! ## A kernel body's spelling -/

/-- The block of sums divided by the column of counts joined with a splat of one (both re-shaped in place, the column
    broadcast across the features), then narrowed: `meanRows`. -/
theorem body_mean (A : FVec Ideal ⟨2, ![r, k]⟩ .f32) (c : FVec Ideal ⟨2, ![r, 1]⟩ .f32)
    (hsA : (⟨2, ![r, k]⟩ : Shape).ShapeCasts ⟨2, ![r, k]⟩) (hsc : (⟨2, ![r, 1]⟩ : Shape).ShapeCasts ⟨2, ![r, 1]⟩)
    (hbc : (⟨2, ![r, 1]⟩ : Shape).Broadcasts ⟨2, ![r, k]⟩) (hlt : FTy.bits .bf16 < FTy.bits .f32) :
    truncf .bf16 (divf (shapeCast ⟨2, ![r, k]⟩ A hsA)
      (broadcastTo ⟨2, ![r, k]⟩ (maximumf (shapeCast ⟨2, ![r, 1]⟩ c hsc)
        (broadcast ⟨2, ![r, 1]⟩ (Scalar.ofBits (F := Ideal) .f32 0x3F800000#32))) hbc)) hlt
      = meanRows A c := by
  funext i
  obtain ⟨p, q, rfl⟩ : ∃ (p : Fin r) (q : Fin k), i = ix2 p q := ⟨i 0, i 1, eq_ix2 i⟩
  rw [truncf_apply, divf_apply, shapeCast_self, broadcast_col_apply, maximumf_apply, shapeCast_self, meanRows_apply]
  rfl

/-- A vector of n entries re-shaped to a 1×n row and broadcast down r rows reads its entry q at (p, q). -/
theorem body_bias_apply (b : (⟨1, ![n]⟩ : Shape).Idx → EReal) (hsb : (⟨1, ![n]⟩ : Shape).ShapeCasts ⟨2, ![1, n]⟩)
    (hbb : (⟨2, ![1, n]⟩ : Shape).Broadcasts ⟨2, ![r, n]⟩) (p : Fin r) (q : Fin n) :
    broadcastTo ⟨2, ![r, n]⟩ (shapeCast ⟨2, ![1, n]⟩ b hsb) hbb (ix2 p q) = b (ix1 q) := by
  rw [Cert.Lib.BlockReads.broadcast_row_apply, shapeCast_eq_asRow]
  rfl

/-- The body's layer: both products into zero accumulators over narrowed operands, added, and the bias row added. -/
theorem body_conv (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (c : FVec Ideal ⟨2, ![r, 1]⟩ .f32) (X : FVec Ideal ⟨2, ![r, k]⟩ .f32)
    (Wl : FVec Ideal ⟨2, ![k, n]⟩ .f32) (b : FVec Ideal ⟨1, ![n]⟩ .f32) (Wr : FVec Ideal ⟨2, ![k, n]⟩ .f32)
    (hsA : (⟨2, ![r, k]⟩ : Shape).ShapeCasts ⟨2, ![r, k]⟩) (hsc : (⟨2, ![r, 1]⟩ : Shape).ShapeCasts ⟨2, ![r, 1]⟩)
    (hbc : (⟨2, ![r, 1]⟩ : Shape).Broadcasts ⟨2, ![r, k]⟩) (hlt : FTy.bits .bf16 < FTy.bits .f32)
    (hsb : (⟨1, ![n]⟩ : Shape).ShapeCasts ⟨2, ![1, n]⟩) (hbb : (⟨2, ![1, n]⟩ : Shape).Broadcasts ⟨2, ![r, n]⟩) :
    addf (addf
        (matmul d none (truncf .bf16 (divf (shapeCast ⟨2, ![r, k]⟩ A hsA)
          (broadcastTo ⟨2, ![r, k]⟩ (maximumf (shapeCast ⟨2, ![r, 1]⟩ c hsc)
            (broadcast ⟨2, ![r, 1]⟩ (Scalar.ofBits (F := Ideal) .f32 0x3F800000#32))) hbc)) hlt)
          (truncf .bf16 Wl hlt) (constant ⟨2, ![r, n]⟩ .f32 0x00000000#32))
        (matmul d none (truncf .bf16 (shapeCast ⟨2, ![r, k]⟩ X hsA) hlt) (truncf .bf16 Wr hlt)
          (constant ⟨2, ![r, n]⟩ .f32 0x00000000#32)))
      (broadcastTo ⟨2, ![r, n]⟩ (shapeCast ⟨2, ![1, n]⟩ b hsb) hbb)
      = conv A c X Wl b Wr := by
  rw [body_mean A c hsA hsc hbc hlt, matmul_zero_eq_matProd d hlc hrc hln hrn hlb hrb none,
    matmul_zero_eq_matProd d hlc hrc hln hrn hlb hrb none, shapeCast_self]
  funext i
  obtain ⟨p, q, rfl⟩ : ∃ (p : Fin r) (q : Fin n), i = ix2 p q := ⟨i 0, i 1, eq_ix2 i⟩
  rw [addf_apply, addf_apply, body_bias_apply]
  rfl

/-- The body's layer joined with a splat of the zero word. -/
theorem body_convRelu (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (c : FVec Ideal ⟨2, ![r, 1]⟩ .f32) (X : FVec Ideal ⟨2, ![r, k]⟩ .f32)
    (Wl : FVec Ideal ⟨2, ![k, n]⟩ .f32) (b : FVec Ideal ⟨1, ![n]⟩ .f32) (Wr : FVec Ideal ⟨2, ![k, n]⟩ .f32)
    (hsA : (⟨2, ![r, k]⟩ : Shape).ShapeCasts ⟨2, ![r, k]⟩) (hsc : (⟨2, ![r, 1]⟩ : Shape).ShapeCasts ⟨2, ![r, 1]⟩)
    (hbc : (⟨2, ![r, 1]⟩ : Shape).Broadcasts ⟨2, ![r, k]⟩) (hlt : FTy.bits .bf16 < FTy.bits .f32)
    (hsb : (⟨1, ![n]⟩ : Shape).ShapeCasts ⟨2, ![1, n]⟩) (hbb : (⟨2, ![1, n]⟩ : Shape).Broadcasts ⟨2, ![r, n]⟩) :
    maximumf (addf (addf
        (matmul d none (truncf .bf16 (divf (shapeCast ⟨2, ![r, k]⟩ A hsA)
          (broadcastTo ⟨2, ![r, k]⟩ (maximumf (shapeCast ⟨2, ![r, 1]⟩ c hsc)
            (broadcast ⟨2, ![r, 1]⟩ (Scalar.ofBits (F := Ideal) .f32 0x3F800000#32))) hbc)) hlt)
          (truncf .bf16 Wl hlt) (constant ⟨2, ![r, n]⟩ .f32 0x00000000#32))
        (matmul d none (truncf .bf16 (shapeCast ⟨2, ![r, k]⟩ X hsA) hlt) (truncf .bf16 Wr hlt)
          (constant ⟨2, ![r, n]⟩ .f32 0x00000000#32)))
      (broadcastTo ⟨2, ![r, n]⟩ (shapeCast ⟨2, ![1, n]⟩ b hsb) hbb))
      (broadcast ⟨2, ![r, n]⟩ (Scalar.ofBits (F := Ideal) .f32 0x00000000#32))
      = relu (conv A c X Wl b Wr) := by
  rw [body_conv d hlc hrc hln hrn hlb hrb A c X Wl b Wr hsA hsc hbc hlt hsb hbb]
  rfl

/-! ## The reference's spelling -/

/-- The reference's mean: the sums divided by the counts joined with a splat of one, the counts broadcast
    [r]→[r,1]→[r,k]. The column of counts is spelt as the kernel's side has it: the vector broadcast to an r×1 column. -/
theorem host_mean (A : FVec Ideal ⟨2, ![r, k]⟩ .f32) (cv : FVec Ideal ⟨1, ![r]⟩ .f32)
    (h0 : (⟨0, ![]⟩ : Shape).BroadcastsInDim ⟨1, ![r]⟩ ![])
    (h1 : (⟨1, ![r]⟩ : Shape).BroadcastsInDim ⟨2, ![r, 1]⟩ ![0])
    (h2 : (⟨2, ![r, 1]⟩ : Shape).BroadcastsInDim ⟨2, ![r, k]⟩ ![0, 1]) :
    Host.divf A (broadcastInDim ⟨2, ![r, k]⟩ ![0, 1] h2 (broadcastInDim ⟨2, ![r, 1]⟩ ![0] h1
      (maximumf cv (broadcastInDim ⟨1, ![r]⟩ ![] h0 (constant (F := Ideal) ⟨0, ![]⟩ .f32 0x3F800000#32)))))
      = meanRows A (broadcastInDim ⟨2, ![r, 1]⟩ ![0] h1 cv) := by
  funext i
  obtain ⟨p, q, rfl⟩ : ∃ (p : Fin r) (q : Fin k), i = ix2 p q := ⟨i 0, i 1, eq_ix2 i⟩
  rw [meanRows_apply, bcastInDim_col_apply]
  simp only [Host.divf]
  rw [bcastInDim_cols_apply, bcastInDim_col_apply, maximumf_apply, Cert.Lib.RowVector.bcastInDim_scalar_apply]
  rfl

/-- A vector of n entries broadcast [n]→[1,n]→[r,n] reads its entry q at (p, q). -/
theorem host_bias_apply (b : (⟨1, ![n]⟩ : Shape).Idx → EReal)
    (hb1 : (⟨1, ![n]⟩ : Shape).BroadcastsInDim ⟨2, ![1, n]⟩ ![1])
    (hb2 : (⟨2, ![1, n]⟩ : Shape).BroadcastsInDim ⟨2, ![r, n]⟩ ![0, 1]) (p : Fin r) (q : Fin n) :
    broadcastInDim ⟨2, ![r, n]⟩ ![0, 1] hb2 (broadcastInDim ⟨2, ![1, n]⟩ ![1] hb1 b) (ix2 p q) = b (ix1 q) := by
  rw [bcastInDim_rows_apply, bcastInDim_eq_asRow]
  rfl

/-- The reference's layer on a matrix M of means: (M · Wl + bias) + X · Wr, the bias added BEFORE the second product.
    On the extended reals it is the kernel's grouping (M · Wl + X · Wr) + bias: addition is commutative and associative. -/
theorem host_sum (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (M : FVec Ideal ⟨2, ![r, k]⟩ .f32) (X : FVec Ideal ⟨2, ![r, k]⟩ .f32)
    (Wl : FVec Ideal ⟨2, ![k, n]⟩ .f32) (b : FVec Ideal ⟨1, ![n]⟩ .f32) (Wr : FVec Ideal ⟨2, ![k, n]⟩ .f32)
    (hb1 : (⟨1, ![n]⟩ : Shape).BroadcastsInDim ⟨2, ![1, n]⟩ ![1])
    (hb2 : (⟨2, ![1, n]⟩ : Shape).BroadcastsInDim ⟨2, ![r, n]⟩ ![0, 1]) :
    addf (addf (Host.dotGeneral d none M Wl)
        (broadcastInDim ⟨2, ![r, n]⟩ ![0, 1] hb2 (broadcastInDim ⟨2, ![1, n]⟩ ![1] hb1 b)))
      (Host.dotGeneral d none X Wr)
      = fun i => (matProd M Wl i + matProd X Wr i) + b (ix1 (⟨(i 1).val, idx2_lt1 i⟩ : Fin n)) := by
  have e1 : Host.dotGeneral d none M Wl = matProd M Wl := dotGeneral_eq_matProd d hlc hrc hln hrn hlb hrb none .single M Wl
  have e2 : Host.dotGeneral d none X Wr = matProd X Wr := dotGeneral_eq_matProd d hlc hrc hln hrn hlb hrb none .single X Wr
  rw [e1, e2]
  funext i
  obtain ⟨p, q, rfl⟩ : ∃ (p : Fin r) (q : Fin n), i = ix2 p q := ⟨i 0, i 1, eq_ix2 i⟩
  rw [addf_apply, addf_apply, host_bias_apply]
  exact add_right_comm _ _ _

/-- The reference's layer from the sums and the vector of counts. -/
theorem host_conv (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (cv : FVec Ideal ⟨1, ![r]⟩ .f32) (X : FVec Ideal ⟨2, ![r, k]⟩ .f32)
    (Wl : FVec Ideal ⟨2, ![k, n]⟩ .f32) (b : FVec Ideal ⟨1, ![n]⟩ .f32) (Wr : FVec Ideal ⟨2, ![k, n]⟩ .f32)
    (h0 : (⟨0, ![]⟩ : Shape).BroadcastsInDim ⟨1, ![r]⟩ ![])
    (h1 : (⟨1, ![r]⟩ : Shape).BroadcastsInDim ⟨2, ![r, 1]⟩ ![0])
    (h2 : (⟨2, ![r, 1]⟩ : Shape).BroadcastsInDim ⟨2, ![r, k]⟩ ![0, 1])
    (hb1 : (⟨1, ![n]⟩ : Shape).BroadcastsInDim ⟨2, ![1, n]⟩ ![1])
    (hb2 : (⟨2, ![1, n]⟩ : Shape).BroadcastsInDim ⟨2, ![r, n]⟩ ![0, 1]) :
    addf (addf (Host.dotGeneral d none
          (Host.divf A (broadcastInDim ⟨2, ![r, k]⟩ ![0, 1] h2 (broadcastInDim ⟨2, ![r, 1]⟩ ![0] h1
            (maximumf cv (broadcastInDim ⟨1, ![r]⟩ ![] h0 (constant (F := Ideal) ⟨0, ![]⟩ .f32 0x3F800000#32)))))) Wl)
        (broadcastInDim ⟨2, ![r, n]⟩ ![0, 1] hb2 (broadcastInDim ⟨2, ![1, n]⟩ ![1] hb1 b)))
      (Host.dotGeneral d none X Wr)
      = conv A (broadcastInDim ⟨2, ![r, 1]⟩ ![0] h1 cv) X Wl b Wr := by
  rw [host_mean A cv h0 h1 h2, host_sum d hlc hrc hln hrn hlb hrb _ X Wl b Wr hb1 hb2]
  rfl

/-- The reference's relu: the array joined with a broadcast of the zero constant. -/
theorem host_relu {s : Shape} (x : FVec Ideal s .f32) (hz : (⟨0, ![]⟩ : Shape).BroadcastsInDim s ![]) :
    maximumf x (broadcastInDim s ![] hz (constant (F := Ideal) ⟨0, ![]⟩ .f32 0x00000000#32)) = relu x := by
  funext i
  rw [maximumf_apply, Cert.Lib.RowVector.bcastInDim_scalar_apply]
  rfl

/-! ## The logarithm of the softmax of a block of rows -/

/-- If row (y 0) of x' is row (i 0) of x and y, i have the same column, the logarithm of the softmax of x' at y is that
    of x at i. -/
theorem logSoftmax_rows {a a' w : Nat} (x : (⟨2, ![a, w]⟩ : Shape).Idx → EReal) (x' : (⟨2, ![a', w]⟩ : Shape).Idx → EReal)
    (y : (⟨2, ![a', w]⟩ : Shape).Idx) (i : (⟨2, ![a, w]⟩ : Shape).Idx)
    (h : ∀ j : Fin w, x' (ix2 (⟨(y 0).val, idx2_lt0 y⟩ : Fin a') j) = x (ix2 (⟨(i 0).val, idx2_lt0 i⟩ : Fin a) j))
    (hcol : (y 1).val = (i 1).val) : logSoftmax x' y = logSoftmax x i := by
  obtain ⟨p', q', rfl⟩ : ∃ (p' : Fin a') (q' : Fin w), y = ix2 p' q' := ⟨y 0, y 1, eq_ix2 y⟩
  obtain ⟨p, q, rfl⟩ : ∃ (p : Fin a) (q : Fin w), i = ix2 p q := ⟨i 0, i 1, eq_ix2 i⟩
  have hq : q' = q := Fin.ext hcol
  subst hq
  rw [logSoftmax_apply, logSoftmax_apply, rowTop_congr x x' p' p h, rowLogSum_congr x x' p' p h]
  exact congrArg (fun z => z - rowTop x p - rowLogSum x p) (h q')

end Cert.Lib.SageLayers

end
-- ==== Proof.Layer0.lean ====
/-
  The first layer's pallas_call, read as a value. The call's grid has 10 points; point t works on rows
  5000·t … 5000·t + 4999 of the 50000 target nodes: it fetches those rows of the summed neighbour features, of the neighbour counts
  and of the nodes' own features, and the whole weight matrices and bias, and writes back those rows of the result. Whatever
  the buffers hold when the region is entered (the parameter V), the body's one store is the layer of the fetched blocks joined
  with zero; an entry of the layer depends on one row of each operand, so a point's block is the same rows of the layer of the
  WHOLE arrays; and the 10 blocks tile the result, so after the region the result array is that layer of the arrays found at entry.
-/
import proofs.«118974_j87256555586107_2_alg».proof.Proof.Gen.KernelIdeal.Frame
import proofs.«118974_j87256555586107_2_alg».proof.Proof.LibSageLayers
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.SageLayers

theorem zero2 : (![0, 0] : Fin 2 → Nat) = fun _ => 0 := funext fun a => by fin_cases a <;> rfl
theorem zero1 : (![0] : Fin 1 → Nat) = fun _ => 0 := funext fun a => by fin_cases a; rfl

/-- The layer of whole arrays this region computes. -/
def layer (A : S50000x128.Idx → EReal) (cn : S50000x1.Idx → EReal) (X : S50000x128.Idx → EReal) (Wl : S128x256.Idx → EReal)
    (b : S256.Idx → EReal) (Wr : S128x256.Idx → EReal) : S50000x256.Idx → EReal :=
  relu (conv A cn X Wl b Wr)

/-- The body's store, as a function of the blocks it loaded, is the layer of those blocks. -/
theorem pay_eq (cn : Vec Ideal S5000x1 .f32) (A X : Vec Ideal S5000x128 .f32) (Wl Wr : Vec Ideal S128x256 .f32) (b : Vec Ideal S256 .f32) :
    k0_pay1 (F := Ideal) cn A X Wl Wr b = relu (conv A cn X Wl b Wr) :=
  body_convRelu dot_S5000x128_S128x256_S5000x256_1_0_0_1_n_n rfl rfl rfl rfl rfl rfl A cn X Wl b Wr
    shapeCasts_S5000x128_S5000x128 shapeCasts_S5000x1_S5000x1 broadcasts_S5000x1_S5000x128 bitsLt_bf16_f32
    shapeCasts_S256_S1x256 broadcasts_S1x256_S5000x256

section
variable (V : (c : Dev nD) → (b : Ref sig .tc) → Buf (Elt Ideal) ((c : Thread nD τ).loc b))

/-- The printed index maps, decided over the grid: the three row-blocked inputs move with the output, block t on the row
    axis and block 0 on the other; the weights and the bias stay at block 0. -/
theorem idx_facts : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- Block t of a row-blocked operand of width w, read at (y₀, y₁), is the array at (5000·t + y₀, y₁). -/
theorem read_A (c : Dev nD) (t : Fin cfg0.N) (y : S5000x128.Idx) :
    iblk0 V c 0 t y = V c main_v11 (ix2 (⟨5000 * t.val + (y 0).val, by have ht : t.val < grid0.N := t.isLt; rw [N_0] at ht; have h : (y 0).val < 5000 := (y 0).isLt; omega⟩ : Fin 50000) (⟨(y 1).val, (y 1).isLt⟩ : Fin 128)) := by
  obtain ⟨e60, e61, e00, e01, -⟩ := idx_facts t
  show V c main_v11 (((cfg0.win 0).blk t).view.emb y) = _
  refine congrArg (V c main_v11) ?_
  funext a; apply Fin.ext
  match a with
  | ⟨0, _⟩ => show win0_0.index t (0 : Fin 2) * 5000 + 1 * (y 0).val = 5000 * t.val + (y 0).val; omega
  | ⟨1, _⟩ => show win0_0.index t (1 : Fin 2) * 128 + 1 * (y 1).val = (y 1).val; omega

theorem read_c (c : Dev nD) (t : Fin cfg0.N) (y : S5000x1.Idx) :
    iblk0 V c 1 t y = V c main_v16 (ix2 (⟨5000 * t.val + (y 0).val, by have ht : t.val < grid0.N := t.isLt; rw [N_0] at ht; have h : (y 0).val < 5000 := (y 0).isLt; omega⟩ : Fin 50000) (⟨(y 1).val, (y 1).isLt⟩ : Fin 1)) := by
  obtain ⟨e60, e61, e00, e01, e10, e11, -⟩ := idx_facts t
  show V c main_v16 (((cfg0.win 1).blk t).view.emb y) = _
  refine congrArg (V c main_v16) ?_
  funext a; apply Fin.ext
  match a with
  | ⟨0, _⟩ => show win0_1.index t (0 : Fin 2) * 5000 + 1 * (y 0).val = 5000 * t.val + (y 0).val; omega
  | ⟨1, _⟩ => show win0_1.index t (1 : Fin 2) * 1 + 1 * (y 1).val = (y 1).val; omega

theorem read_X (c : Dev nD) (t : Fin cfg0.N) (y : S5000x128.Idx) :
    iblk0 V c 2 t y = V c main_v17 (ix2 (⟨5000 * t.val + (y 0).val, by have ht : t.val < grid0.N := t.isLt; rw [N_0] at ht; have h : (y 0).val < 5000 := (y 0).isLt; omega⟩ : Fin 50000) (⟨(y 1).val, (y 1).isLt⟩ : Fin 128)) := by
  obtain ⟨e60, e61, e00, e01, e10, e11, e20, e21, -⟩ := idx_facts t
  show V c main_v17 (((cfg0.win 2).blk t).view.emb y) = _
  refine congrArg (V c main_v17) ?_
  funext a; apply Fin.ext
  match a with
  | ⟨0, _⟩ => show win0_2.index t (0 : Fin 2) * 5000 + 1 * (y 0).val = 5000 * t.val + (y 0).val; omega
  | ⟨1, _⟩ => show win0_2.index t (1 : Fin 2) * 128 + 1 * (y 1).val = (y 1).val; omega

/-- The weights' and the bias's one block is the whole array. -/
theorem read_Wl (c : Dev nD) (t : Fin cfg0.N) : iblk0 V c 3 t = V c main_arg5 := by
  obtain ⟨e60, e61, e00, e01, e10, e11, e20, e21, e30, e31, -⟩ := idx_facts t
  funext y
  show V c main_arg5 (((cfg0.win 3).blk t).view.emb y) = _
  refine congrArg (V c main_arg5) ?_
  funext a; apply Fin.ext
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem read_b (c : Dev nD) (t : Fin cfg0.N) : iblk0 V c 4 t = V c main_arg6 := by
  obtain ⟨e60, e61, e00, e01, e10, e11, e20, e21, e30, e31, e40, -⟩ := idx_facts t
  funext y
  show V c main_arg6 (((cfg0.win 4).blk t).view.emb y) = _
  refine congrArg (V c main_arg6) ?_
  funext a; apply Fin.ext
  match a with
  | ⟨0, _⟩ => show win0_4.index t (0 : Fin 1) * 256 + 1 * (y 0).val = (y 0).val; omega

theorem read_Wr (c : Dev nD) (t : Fin cfg0.N) : iblk0 V c 5 t = V c main_arg7 := by
  obtain ⟨e60, e61, e00, e01, e10, e11, e20, e21, e30, e31, e40, e50, e51⟩ := idx_facts t
  funext y
  show V c main_arg7 (((cfg0.win 5).blk t).view.emb y) = _
  refine congrArg (V c main_arg7) ?_
  funext a; apply Fin.ext
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- The layer of whole arrays, of the arrays the region finds. -/
abbrev G (c : Dev nD) : S50000x256.Idx → EReal :=
  layer (V c main_v11) (V c main_v16) (V c main_v17) (V c main_arg5) (V c main_arg6) (V c main_arg7)

/-- Where block t of the result sits: (y₀, y₁) of the block is (5000·t + y₀, y₁) of the array. -/
theorem emb_out (t : Fin cfg0.N) (y : S5000x256.Idx) :
    ((cfg0.win 6).blk t).view.emb y = ix2 (⟨5000 * t.val + (y 0).val, by have ht : t.val < grid0.N := t.isLt; rw [N_0] at ht; have h : (y 0).val < 5000 := (y 0).isLt; omega⟩ : Fin 50000) (⟨(y 1).val, (y 1).isLt⟩ : Fin 256) := by
  obtain ⟨e60, e61, -⟩ := idx_facts t
  funext a; apply Fin.ext
  match a with
  | ⟨0, _⟩ => show win0_6.index t (0 : Fin 2) * 5000 + 1 * (y 0).val = 5000 * t.val + (y 0).val; omega
  | ⟨1, _⟩ => show win0_6.index t (1 : Fin 2) * 256 + 1 * (y 1).val = (y 1).val; omega

/-- WHAT POINT t WRITES BACK is block t of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero zero2]
  simp only [View.ld_unit_zero (S := S5000x1) zero2, View.ld_unit_zero (S := S5000x128) zero2, View.ld_unit_zero (S := S128x256) zero2,
    View.ld_unit_zero (S := S256) zero1]
  rw [pay_eq, read_Wl V c t, read_b V c t, read_Wr V c t]
  funext y
  show _ = G V c (((cfg0.win 6).blk t).view.emb y)
  rw [emb_out t y]
  show relu (conv (iblk0 V c 0 t) (iblk0 V c 1 t) (iblk0 V c 2 t) (V c main_arg5) (V c main_arg6) (V c main_arg7)) y
    = relu (conv (V c main_v11) (V c main_v16) (V c main_v17) (V c main_arg5) (V c main_arg6) (V c main_arg7)) _
  refine congrArg (fun z => max z zeroWord) ?_
  refine conv_rows (V c main_v11) (V c main_v16) (V c main_v17) (iblk0 V c 0 t) (iblk0 V c 1 t) (iblk0 V c 2 t)
    (V c main_arg5) (V c main_arg6) (V c main_arg7) y _ (fun j => ?_) ?_ (fun j => ?_) rfl
  · exact read_A V c t _
  · exact read_c V c t _
  · exact read_X V c t _

/-- An index of the result is in point t's block iff its row is among the block's rows. -/
theorem mem_blk (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v18).slice (win0_6.rect t)).set ↔ _
  rw [View.set_slice_whole, Rect.mem_set_unit]
  exact Iff.rfl

/-- Every index of the result is in the block of the point its row falls to. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN := N_0
  let t : Fin cfg0.N := ⟨(i 0).val / 5000, by show (i 0).val / 5000 < grid0.N; rw [hN]; omega⟩
  refine ⟨t, flush0_6 t, ?_⟩
  obtain ⟨e60, e61, -⟩ := idx_facts t
  have ht : t.val = (i 0).val / 5000 := rfl
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 256 ≤ (i 1).val ∧ (i 1).val < win0_6.index t (1 : Fin 2) * 256 + 256; omega

/-- THE RESULT ARRAY after the region: the layer of the arrays found at entry. -/
theorem final (c : Dev nD) : (dat0 V c).arrAt 6 cfg0.N = G V c :=
  (dat0 V c).arrAt_eq_of_cover 6 (G V c) (fun t _ => flushed_eq V c t) (cover)

end

end Cert.KernelIdeal.Layer0

end
-- ==== Proof.LibLogSoftmaxBody.lean ====
/-
  A second kernel-body spelling of the logarithm of the softmax along each row of an a×b array, on the extended reals:
  the row maximum (a lane maximum into a −∞ accumulator, re-shaped [a]→[a,1] and broadcast) is subtracted FIRST, and the
  logarithm of the row sum of the exponentials (a lane sum into a zero accumulator, re-shaped, its logarithm broadcast) is
  subtracted from that difference — (x − top) − lse, the grouping of `logSoftmax`. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«118974_j87256555586107_2_alg».proof.Proof.LibRowReductions
import proofs.«118974_j87256555586107_2_alg».proof.Proof.LibLogSoftmaxRows

open scoped BigOperators

noncomputable section

namespace Cert.Lib.LogSoftmaxBody

open Idealize.ShloMosaic Idealize.ShloMosaic.ValueIdx Cert.Lib.RowReductions Cert.Lib.LogSoftmaxRows

variable {a b : Nat}

/-- Lane maximum into a −∞ accumulator, re-shaped to a column, broadcast and subtracted; exponential; lane sum into a
    zero accumulator, re-shaped to a column; its logarithm broadcast and subtracted from the first difference:
    `logSoftmax` of the block. -/
theorem body_grouped_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf (subf x (broadcastTo ⟨2, ![a, b]⟩
        (shapeCast ⟨2, ![a, 1]⟩ (multiReduction .maximumf [1] ⟨1, ![a]⟩ x 0xFF800000#32 hr hφ hmax) hc) hb))
      (broadcastTo ⟨2, ![a, b]⟩
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc)) hb)
      = logSoftmax x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, subf_apply, broadcast_col_apply, top, broadcast_col_apply, logSoftmax_apply]
  refine congrArg (fun z => (x (ix2 p q) - rowTop x p) - z) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

end Cert.Lib.LogSoftmaxBody

end
-- ==== Proof.LibSageSoftmax.lean ====
/-
  The second graph layer: one mean-aggregation layer followed by the logarithm of the softmax along each row, on the
  extended reals. A kernel body's spelling of it on a block of rows — the layer as in the first file, then the row maximum
  (a lane maximum into a −∞ accumulator) subtracted, and the logarithm of the row sum of the exponentials subtracted from that
  difference — is `logSoftmax` of `conv`. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«118974_j87256555586107_2_alg».proof.Proof.LibSageLayers
import proofs.«118974_j87256555586107_2_alg».proof.Proof.LibLogSoftmaxRows
import proofs.«118974_j87256555586107_2_alg».proof.Proof.LibLogSoftmaxBody

noncomputable section

namespace Cert.Lib.SageLayers

open Idealize.ShloMosaic Idealize.ShloMosaic.ValueIdx Cert.Lib.LogSoftmaxRows Cert.Lib.LogSoftmaxBody

variable {r k n : Nat}

/-- The body's layer, its row maximum subtracted, and the logarithm of the row sum of the exponentials subtracted. -/
theorem body_convLogSoftmax (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![r, k]⟩ .f32) (c : FVec Ideal ⟨2, ![r, 1]⟩ .f32) (X : FVec Ideal ⟨2, ![r, k]⟩ .f32)
    (Wl : FVec Ideal ⟨2, ![k, n]⟩ .f32) (b : FVec Ideal ⟨1, ![n]⟩ .f32) (Wr : FVec Ideal ⟨2, ![k, n]⟩ .f32)
    (hsA : (⟨2, ![r, k]⟩ : Shape).ShapeCasts ⟨2, ![r, k]⟩) (hsc : (⟨2, ![r, 1]⟩ : Shape).ShapeCasts ⟨2, ![r, 1]⟩)
    (hbc : (⟨2, ![r, 1]⟩ : Shape).Broadcasts ⟨2, ![r, k]⟩) (hlt : FTy.bits .bf16 < FTy.bits .f32)
    (hsb : (⟨1, ![n]⟩ : Shape).ShapeCasts ⟨2, ![1, n]⟩) (hbb : (⟨2, ![1, n]⟩ : Shape).Broadcasts ⟨2, ![r, n]⟩)
    (hr : (⟨2, ![r, n]⟩ : Shape).Reduces [1] ⟨1, ![r]⟩) (hc : (⟨1, ![r]⟩ : Shape).ShapeCasts ⟨2, ![r, 1]⟩)
    (hb : (⟨2, ![r, 1]⟩ : Shape).Broadcasts ⟨2, ![r, n]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    let L : FVec Ideal ⟨2, ![r, n]⟩ .f32 := addf (addf
        (matmul d none (truncf .bf16 (divf (shapeCast ⟨2, ![r, k]⟩ A hsA)
          (broadcastTo ⟨2, ![r, k]⟩ (maximumf (shapeCast ⟨2, ![r, 1]⟩ c hsc)
            (broadcast ⟨2, ![r, 1]⟩ (Scalar.ofBits (F := Ideal) .f32 0x3F800000#32))) hbc)) hlt)
          (truncf .bf16 Wl hlt) (constant ⟨2, ![r, n]⟩ .f32 0x00000000#32))
        (matmul d none (truncf .bf16 (shapeCast ⟨2, ![r, k]⟩ X hsA) hlt) (truncf .bf16 Wr hlt)
          (constant ⟨2, ![r, n]⟩ .f32 0x00000000#32)))
      (broadcastTo ⟨2, ![r, n]⟩ (shapeCast ⟨2, ![1, n]⟩ b hsb) hbb)
    subf (subf L (broadcastTo ⟨2, ![r, n]⟩
        (shapeCast ⟨2, ![r, 1]⟩ (multiReduction .maximumf [1] ⟨1, ![r]⟩ L 0xFF800000#32 hr hφ hmax) hc) hb))
      (broadcastTo ⟨2, ![r, n]⟩
        (log (shapeCast ⟨2, ![r, 1]⟩ (multiReduction .add [1] ⟨1, ![r]⟩
          (exp (subf L (broadcastTo ⟨2, ![r, n]⟩
            (shapeCast ⟨2, ![r, 1]⟩ (multiReduction .maximumf [1] ⟨1, ![r]⟩ L 0xFF800000#32 hr hφ hmax) hc) hb)))
          0x00000000#32 hr hφ hadd) hc)) hb)
      = logSoftmax (conv A c X Wl b Wr) := by
  intro L
  exact (body_grouped_eq L hr hc hb hφ hmax hadd).trans
    (congrArg logSoftmax (body_conv d hlc hrc hln hrn hlb hrb A c X Wl b Wr hsA hsc hbc hlt hsb hbb))

end Cert.Lib.SageLayers

end
-- ==== Proof.Layer1.lean ====
/-
  The second layer's pallas_call, read as a value. The call's grid has 2 points; point t works on rows
  2048·t … 2048·t + 2047 of the 4096 target nodes: it fetches those rows of the summed neighbour features, of the neighbour counts
  and of the nodes' own features, and the whole weight matrices and bias, and writes back those rows of the result. Whatever
  the buffers hold when the region is entered (the parameter V), the body's one store is the layer of the fetched blocks,
  followed by the logarithm of the softmax along each row; an entry of the layer depends on one row of each operand, so a point's block is the same rows of the layer of the
  WHOLE arrays; and the 2 blocks tile the result, so after the region the result array is that layer of the arrays found at entry.
-/
import proofs.«118974_j87256555586107_2_alg».proof.Proof.Gen.KernelIdeal.Frame
import proofs.«118974_j87256555586107_2_alg».proof.Proof.LibSageLayers
import proofs.«118974_j87256555586107_2_alg».proof.Proof.LibSageSoftmax
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.SageLayers Cert.Lib.LogSoftmaxRows

theorem zero2 : (![0, 0] : Fin 2 → Nat) = fun _ => 0 := funext fun a => by fin_cases a <;> rfl
theorem zero1 : (![0] : Fin 1 → Nat) = fun _ => 0 := funext fun a => by fin_cases a; rfl

/-- The layer of whole arrays this region computes. -/
def layer (A : S4096x256.Idx → EReal) (cn : S4096x1.Idx → EReal) (X : S4096x256.Idx → EReal) (Wl : S256x64.Idx → EReal)
    (b : S64.Idx → EReal) (Wr : S256x64.Idx → EReal) : S4096x64.Idx → EReal :=
  logSoftmax (conv A cn X Wl b Wr)

/-- The body's store, as a function of the blocks it loaded, is the layer of those blocks. -/
theorem pay_eq (cn : Vec Ideal S2048x1 .f32) (A X : Vec Ideal S2048x256 .f32) (Wl Wr : Vec Ideal S256x64 .f32) (b : Vec Ideal S64 .f32) :
    k1_pay1 (F := Ideal) cn A X Wl Wr b = logSoftmax (conv A cn X Wl b Wr) :=
  body_convLogSoftmax dot_S2048x256_S256x64_S2048x64_1_0_0_1_n_n rfl rfl rfl rfl rfl rfl A cn X Wl b Wr
    shapeCasts_S2048x256_S2048x256 shapeCasts_S2048x1_S2048x1 broadcasts_S2048x1_S2048x256 bitsLt_bf16_f32
    shapeCasts_S64_S1x64 broadcasts_S1x64_S2048x64 reduces_S2048x64_S2048 shapeCasts_S2048_S2048x1 broadcasts_S2048x1_S2048x64
    (.inl rfl) rfl rfl

section
variable (V : (c : Dev nD) → (b : Ref sig .tc) → Buf (Elt Ideal) ((c : Thread nD τ).loc b))

/-- The printed index maps, decided over the grid: the three row-blocked inputs move with the output, block t on the row
    axis and block 0 on the other; the weights and the bias stay at block 0. -/
theorem idx_facts : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- Block t of a row-blocked operand of width w, read at (y₀, y₁), is the array at (2048·t + y₀, y₁). -/
theorem read_A (c : Dev nD) (t : Fin cfg1.N) (y : S2048x256.Idx) :
    iblk1 V c 0 t y = V c main_v28 (ix2 (⟨2048 * t.val + (y 0).val, by have ht : t.val < grid1.N := t.isLt; rw [N_1] at ht; have h : (y 0).val < 2048 := (y 0).isLt; omega⟩ : Fin 4096) (⟨(y 1).val, (y 1).isLt⟩ : Fin 256)) := by
  obtain ⟨e60, e61, e00, e01, -⟩ := idx_facts t
  show V c main_v28 (((cfg1.win 0).blk t).view.emb y) = _
  refine congrArg (V c main_v28) ?_
  funext a; apply Fin.ext
  match a with
  | ⟨0, _⟩ => show win1_0.index t (0 : Fin 2) * 2048 + 1 * (y 0).val = 2048 * t.val + (y 0).val; omega
  | ⟨1, _⟩ => show win1_0.index t (1 : Fin 2) * 256 + 1 * (y 1).val = (y 1).val; omega

theorem read_c (c : Dev nD) (t : Fin cfg1.N) (y : S2048x1.Idx) :
    iblk1 V c 1 t y = V c main_v33 (ix2 (⟨2048 * t.val + (y 0).val, by have ht : t.val < grid1.N := t.isLt; rw [N_1] at ht; have h : (y 0).val < 2048 := (y 0).isLt; omega⟩ : Fin 4096) (⟨(y 1).val, (y 1).isLt⟩ : Fin 1)) := by
  obtain ⟨e60, e61, e00, e01, e10, e11, -⟩ := idx_facts t
  show V c main_v33 (((cfg1.win 1).blk t).view.emb y) = _
  refine congrArg (V c main_v33) ?_
  funext a; apply Fin.ext
  match a with
  | ⟨0, _⟩ => show win1_1.index t (0 : Fin 2) * 2048 + 1 * (y 0).val = 2048 * t.val + (y 0).val; omega
  | ⟨1, _⟩ => show win1_1.index t (1 : Fin 2) * 1 + 1 * (y 1).val = (y 1).val; omega

theorem read_X (c : Dev nD) (t : Fin cfg1.N) (y : S2048x256.Idx) :
    iblk1 V c 2 t y = V c main_v34 (ix2 (⟨2048 * t.val + (y 0).val, by have ht : t.val < grid1.N := t.isLt; rw [N_1] at ht; have h : (y 0).val < 2048 := (y 0).isLt; omega⟩ : Fin 4096) (⟨(y 1).val, (y 1).isLt⟩ : Fin 256)) := by
  obtain ⟨e60, e61, e00, e01, e10, e11, e20, e21, -⟩ := idx_facts t
  show V c main_v34 (((cfg1.win 2).blk t).view.emb y) = _
  refine congrArg (V c main_v34) ?_
  funext a; apply Fin.ext
  match a with
  | ⟨0, _⟩ => show win1_2.index t (0 : Fin 2) * 2048 + 1 * (y 0).val = 2048 * t.val + (y 0).val; omega
  | ⟨1, _⟩ => show win1_2.index t (1 : Fin 2) * 256 + 1 * (y 1).val = (y 1).val; omega

/-- The weights' and the bias's one block is the whole array. -/
theorem read_Wl (c : Dev nD) (t : Fin cfg1.N) : iblk1 V c 3 t = V c main_arg8 := by
  obtain ⟨e60, e61, e00, e01, e10, e11, e20, e21, e30, e31, -⟩ := idx_facts t
  funext y
  show V c main_arg8 (((cfg1.win 3).blk t).view.emb y) = _
  refine congrArg (V c main_arg8) ?_
  funext a; apply Fin.ext
  match a with
  | ⟨0, _⟩ => show win1_3.index t (0 : Fin 2) * 256 + 1 * (y 0).val = (y 0).val; omega
  | ⟨1, _⟩ => show win1_3.index t (1 : Fin 2) * 64 + 1 * (y 1).val = (y 1).val; omega

theorem read_b (c : Dev nD) (t : Fin cfg1.N) : iblk1 V c 4 t = V c main_arg9 := by
  obtain ⟨e60, e61, e00, e01, e10, e11, e20, e21, e30, e31, e40, -⟩ := idx_facts t
  funext y
  show V c main_arg9 (((cfg1.win 4).blk t).view.emb y) = _
  refine congrArg (V c main_arg9) ?_
  funext a; apply Fin.ext
  match a with
  | ⟨0, _⟩ => show win1_4.index t (0 : Fin 1) * 64 + 1 * (y 0).val = (y 0).val; omega

theorem read_Wr (c : Dev nD) (t : Fin cfg1.N) : iblk1 V c 5 t = V c main_arg10 := by
  obtain ⟨e60, e61, e00, e01, e10, e11, e20, e21, e30, e31, e40, e50, e51⟩ := idx_facts t
  funext y
  show V c main_arg10 (((cfg1.win 5).blk t).view.emb y) = _
  refine congrArg (V c main_arg10) ?_
  funext a; apply Fin.ext
  match a with
  | ⟨0, _⟩ => show win1_5.index t (0 : Fin 2) * 256 + 1 * (y 0).val = (y 0).val; omega
  | ⟨1, _⟩ => show win1_5.index t (1 : Fin 2) * 64 + 1 * (y 1).val = (y 1).val; omega

/-- The layer of whole arrays, of the arrays the region finds. -/
abbrev G (c : Dev nD) : S4096x64.Idx → EReal :=
  layer (V c main_v28) (V c main_v33) (V c main_v34) (V c main_arg8) (V c main_arg9) (V c main_arg10)

/-- Where block t of the result sits: (y₀, y₁) of the block is (2048·t + y₀, y₁) of the array. -/
theorem emb_out (t : Fin cfg1.N) (y : S2048x64.Idx) :
    ((cfg1.win 6).blk t).view.emb y = ix2 (⟨2048 * t.val + (y 0).val, by have ht : t.val < grid1.N := t.isLt; rw [N_1] at ht; have h : (y 0).val < 2048 := (y 0).isLt; omega⟩ : Fin 4096) (⟨(y 1).val, (y 1).isLt⟩ : Fin 64) := by
  obtain ⟨e60, e61, -⟩ := idx_facts t
  funext a; apply Fin.ext
  match a with
  | ⟨0, _⟩ => show win1_6.index t (0 : Fin 2) * 2048 + 1 * (y 0).val = 2048 * t.val + (y 0).val; omega
  | ⟨1, _⟩ => show win1_6.index t (1 : Fin 2) * 64 + 1 * (y 1).val = (y 1).val; omega

/-- WHAT POINT t WRITES BACK is block t of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero zero2]
  simp only [View.ld_unit_zero (S := S2048x1) zero2, View.ld_unit_zero (S := S2048x256) zero2, View.ld_unit_zero (S := S256x64) zero2,
    View.ld_unit_zero (S := S64) zero1]
  rw [pay_eq, read_Wl V c t, read_b V c t, read_Wr V c t]
  funext y
  show _ = G V c (((cfg1.win 6).blk t).view.emb y)
  rw [emb_out t y]
  show logSoftmax (conv (iblk1 V c 0 t) (iblk1 V c 1 t) (iblk1 V c 2 t) (V c main_arg8) (V c main_arg9) (V c main_arg10)) y
    = logSoftmax (conv (V c main_v28) (V c main_v33) (V c main_v34) (V c main_arg8) (V c main_arg9) (V c main_arg10)) _
  refine logSoftmax_rows _ _ y _ (fun q => ?_) rfl
  refine conv_rows (V c main_v28) (V c main_v33) (V c main_v34) (iblk1 V c 0 t) (iblk1 V c 1 t) (iblk1 V c 2 t)
    (V c main_arg8) (V c main_arg9) (V c main_arg10) _ _ (fun j => ?_) ?_ (fun j => ?_) rfl
  · exact read_A V c t _
  · exact read_c V c t _
  · exact read_X V c t _

/-- An index of the result is in point t's block iff its row is among the block's rows. -/
theorem mem_blk (t : Fin cfg1.N) (i : S4096x64.Idx) :
    i ∈ ((cfg1.win 6).blk t).view.set ↔ ∀ a : Fin 2, win1_6.index t a * S2048x64.size a ≤ (i a).val ∧ (i a).val < win1_6.index t a * S2048x64.size a + S2048x64.size a := by
  show i ∈ ((View.whole main_v35).slice (win1_6.rect t)).set ↔ _
  rw [View.set_slice_whole, Rect.mem_set_unit]
  exact Iff.rfl

/-- Every index of the result is in the block of the point its row falls to. -/
theorem cover (i : S4096x64.Idx) : ∃ t : Fin cfg1.N, (cfg1.win 6).flush t = true ∧ i ∈ ((cfg1.win 6).blk t).view.set := by
  have hi0 : (i 0).val < 4096 := (i 0).isLt
  have hi1 : (i 1).val < 64 := (i 1).isLt
  have hN := N_1
  let t : Fin cfg1.N := ⟨(i 0).val / 2048, by show (i 0).val / 2048 < grid1.N; rw [hN]; omega⟩
  refine ⟨t, flush1_6 t, ?_⟩
  obtain ⟨e60, e61, -⟩ := idx_facts t
  have ht : t.val = (i 0).val / 2048 := rfl
  rw [mem_blk]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 64 ≤ (i 1).val ∧ (i 1).val < win1_6.index t (1 : Fin 2) * 64 + 64; omega

/-- THE RESULT ARRAY after the region: the layer of the arrays found at entry. -/
theorem final (c : Dev nD) : (dat1 V c).arrAt 6 cfg1.N = G V c :=
  (dat1 V c).arrAt_eq_of_cover 6 (G V c) (fun t _ => flushed_eq V c t) (cover)

end

end Cert.KernelIdeal.Layer1

end
-- ==== Proof.KernelRun.lean ====
/-
  The idealized kernel's run with EVERY unscoped buffer named after it: the generated frame certificate launches @main's four
  segments (host operations, the first layer's pallas_call, host operations, the second layer's pallas_call) and reads only
  the argument arrays off the last boundary's contents; here the same launch is read at every unscoped buffer, so that
  the result array can be named too. The contents at the last boundary are the generated fold `Gen.W4`: the second
  region's arrays at what its write-backs leave, every other buffer as the host operations before it left it.
-/
import proofs.«118974_j87256555586107_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at what the second region's write-backs leave, and the arguments end as launched. -/
theorem run_result : θ_run defs (onTc (τ := τ) (main (F := F))) ⟨m, fun _ => 0, ρ⟩ (fun r => ∀ c : Dev nD,
      r.2.mem ((c.tc : Thread nD τ).loc main_v35) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v35 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_all m ρ)

end Cert.KernelIdeal.Whole

end
-- ==== Proof.KernelValue.lean ====
/-
  The idealized kernel's result as ONE function of the argument arrays.

  The model is a two-layer graph network. For each layer the host operations gather a row of the source table per edge
  (after jnp's wrap of a negative index), add the gathered rows into the edge's target node (a scatter-add into zeros), and
  count the edges per target node (a scatter-add of ones into zeros); a pallas_call then divides each node's sum by its count
  joined with one, multiplies by the weights, adds the node's own row times the second weights and the bias, and applies the
  activation (a join with zero after the first layer, the logarithm of the softmax along each row after the second). The
  second layer's table is the first layer's result, and its nodes are that result's first 4096 rows.

  The gather and the scatter-adds are kept as the host's own functions of the table and the index arrays: both programs
  apply the same ones, so nothing about which rows an index array selects is needed. On the extended reals a change of
  float format is the identity, so the kernel's gather from a narrowed copy of x, widened again, is the gather from x.

  Each region's result array is the layer of the arrays the region finds at entry (the two layer modules); what it finds
  is read off the host operations before it, and the first region's result reaches the second through the fold of buffer
  contents across the four segments of @main.
-/
import proofs.«118974_j87256555586107_2_alg».proof.Proof.Gen.KernelIdeal.Frame
import proofs.«118974_j87256555586107_2_alg».proof.Proof.Layer0
import proofs.«118974_j87256555586107_2_alg».proof.Proof.Layer1
import proofs.«118974_j87256555586107_2_alg».proof.Proof.KernelRun
import Idealize.ShloMosaic.Lib.StableHlo.Run

set_option maxRecDepth 16384

noncomputable section

namespace Cert.KernelIdeal.Model

open Idealize.ShloMosaic Idealize.ShloMosaic.TcCoe Idealize.SL.Sem Idealize.ShloMosaic.StableHlo
open Cert.KernelIdeal Cert.KernelIdeal.Gen

/-- The first layer's source indices, a negative one wrapped by the table's 1000000 rows, as a column. -/
def srcCol0 (s : IVec S1250000 32) : IVec S1250000x1 32 :=
  broadcastInDim S1250000x1 ![0] bcast_S1250000_S1250000x1_0
    (select (cmpi .slt s (broadcastInDim S1250000 ![] bcast_S_S1250000 (constantI S_ 32 0#32)))
      (addi s (broadcastInDim S1250000 ![] bcast_S_S1250000 (constantI S_ 32 1000000#32))) s)

/-- The sums of the neighbours' feature rows, per first-layer target node. -/
def agg0 (x : S1000000x128.Idx → EReal) (s d : IVec S1250000 32) : S50000x128.Idx → EReal :=
  Host.scatterAdd (F := Ideal) (φ := .f32) scatter_S50000x128_S1250000x1_S1250000x128_1_0_0_1
    (broadcastInDim S50000x128 ![] bcast_S_S50000x128 (constant (F := Ideal) S_ .f32 0x00000000#32))
    (broadcastInDim S1250000x1 ![0] bcast_S1250000_S1250000x1_0 d)
    (Host.gather gather_S1000000x128_S1250000x1_S1250000x128_1_0_n_n_0_1_1128 x (srcCol0 s))

/-- The number of neighbours per first-layer target node. -/
def cnt0 (d : IVec S1250000 32) : S50000.Idx → EReal :=
  Host.scatterAdd (F := Ideal) (φ := .f32) scatter_S50000_S1250000x1_S1250000_n_0_0_1
    (broadcastInDim S50000 ![] bcast_S_S50000 (constant (F := Ideal) S_ .f32 0x00000000#32))
    (broadcastInDim S1250000x1 ![0] bcast_S1250000_S1250000x1_0 d)
    (broadcastInDim S1250000 ![] bcast_S_S1250000 (constant (F := Ideal) S_ .f32 0x3F800000#32))

/-- The first layer's result: the hidden features of the 50000 first-layer target nodes. -/
def hidden (x : S1000000x128.Idx → EReal) (s d : IVec S1250000 32) (Wl : S128x256.Idx → EReal) (b : S256.Idx → EReal)
    (Wr : S128x256.Idx → EReal) : S50000x256.Idx → EReal :=
  Layer0.layer (agg0 x s d) (broadcastInDim S50000x1 ![0] bcast_S50000_S50000x1_0 (cnt0 d))
    (extractStridedSlice S50000x128 ![0, 0] x slices_S1000000x128_S50000x128_0_0) Wl b Wr

/-- The second layer's source indices, a negative one wrapped by the table's 50000 rows, as a column. -/
def srcCol1 (s : IVec S40960 32) : IVec S40960x1 32 :=
  broadcastInDim S40960x1 ![0] bcast_S40960_S40960x1_0
    (select (cmpi .slt s (broadcastInDim S40960 ![] bcast_S_S40960 (constantI S_ 32 0#32)))
      (addi s (broadcastInDim S40960 ![] bcast_S_S40960 (constantI S_ 32 50000#32))) s)

/-- The sums of the neighbours' hidden rows, per second-layer target node. -/
def agg1 (h : S50000x256.Idx → EReal) (s d : IVec S40960 32) : S4096x256.Idx → EReal :=
  Host.scatterAdd (F := Ideal) (φ := .f32) scatter_S4096x256_S40960x1_S40960x256_1_0_0_1
    (broadcastInDim S4096x256 ![] bcast_S_S4096x256 (constant (F := Ideal) S_ .f32 0x00000000#32))
    (broadcastInDim S40960x1 ![0] bcast_S40960_S40960x1_0 d)
    (Host.gather gather_S50000x256_S40960x1_S40960x256_1_0_n_n_0_1_1256 h (srcCol1 s))

/-- The number of neighbours per second-layer target node. -/
def cnt1 (d : IVec S40960 32) : S4096.Idx → EReal :=
  Host.scatterAdd (F := Ideal) (φ := .f32) scatter_S4096_S40960x1_S40960_n_0_0_1
    (broadcastInDim S4096 ![] bcast_S_S4096 (constant (F := Ideal) S_ .f32 0x00000000#32))
    (broadcastInDim S40960x1 ![0] bcast_S40960_S40960x1_0 d)
    (broadcastInDim S40960 ![] bcast_S_S40960 (constant (F := Ideal) S_ .f32 0x3F800000#32))

/-- The second layer on a table h of hidden features. -/
def outOf (h : S50000x256.Idx → EReal) (s d : IVec S40960 32) (Wl : S256x64.Idx → EReal) (b : S64.Idx → EReal)
    (Wr : S256x64.Idx → EReal) : S4096x64.Idx → EReal :=
  Layer1.layer (agg1 h s d) (broadcastInDim S4096x1 ![0] bcast_S4096_S4096x1_0 (cnt1 d))
    (extractStridedSlice S4096x256 ![0, 0] h slices_S50000x256_S4096x256_0_0) Wl b Wr

/-- The whole model. -/
def out (x : S1000000x128.Idx → EReal) (s0 d0 : IVec S1250000 32) (s1 d1 : IVec S40960 32)
    (Wl0 : S128x256.Idx → EReal) (b0 : S256.Idx → EReal) (Wr0 : S128x256.Idx → EReal)
    (Wl1 : S256x64.Idx → EReal) (b1 : S64.Idx → EReal) (Wr1 : S256x64.Idx → EReal) : S4096x64.Idx → EReal :=
  outOf (hidden x s0 d0 Wl0 b0 Wr0) s1 d1 Wl1 b1 Wr1

end Cert.KernelIdeal.Model

namespace Cert.KernelIdeal.Whole

open Idealize.ShloMosaic Idealize.ShloMosaic.TcCoe Idealize.SL.Sem Idealize.ShloMosaic.StableHlo
open Cert.KernelIdeal Cert.KernelIdeal.Gen Cert.KernelIdeal.Model

variable (m : (ℓ : Loc nD τ sig) → Buf (Elt Ideal) ℓ) (ρ : Dev nD → PrngReg)

/-! ## What the first region finds -/

theorem V1_agg (c : Dev nD) : V1 m ρ c main_v11
    = agg0 (m ((c : Thread nD τ).loc main_arg0)) (m ((c : Thread nD τ).loc main_arg1)) (m ((c : Thread nD τ).loc main_arg2)) := by
  show StableHlo.after hostOps0 (W0 m ρ c) (Proc.devRef .tc main_v11) = _
  after_results <;> rfl

theorem V1_cnt (c : Dev nD) : V1 m ρ c main_v16
    = broadcastInDim S50000x1 ![0] bcast_S50000_S50000x1_0 (cnt0 (m ((c : Thread nD τ).loc main_arg2))) := by
  show StableHlo.after hostOps0 (W0 m ρ c) (Proc.devRef .tc main_v16) = _
  after_results <;> rfl

theorem V1_own (c : Dev nD) : V1 m ρ c main_v17
    = extractStridedSlice S50000x128 ![0, 0] (m ((c : Thread nD τ).loc main_arg0)) slices_S1000000x128_S50000x128_0_0 := by
  show StableHlo.after hostOps0 (W0 m ρ c) (Proc.devRef .tc main_v17) = _
  after_results <;> rfl

theorem V1_arg5 (c : Dev nD) : V1 m ρ c main_arg5 = m ((c : Thread nD τ).loc main_arg5) := by
  show StableHlo.after hostOps0 (W0 m ρ c) (Proc.devRef .tc main_arg5) = _
  after_results <;> rfl

theorem V1_arg6 (c : Dev nD) : V1 m ρ c main_arg6 = m ((c : Thread nD τ).loc main_arg6) := by
  show StableHlo.after hostOps0 (W0 m ρ c) (Proc.devRef .tc main_arg6) = _
  after_results <;> rfl

theorem V1_arg7 (c : Dev nD) : V1 m ρ c main_arg7 = m ((c : Thread nD τ).loc main_arg7) := by
  show StableHlo.after hostOps0 (W0 m ρ c) (Proc.devRef .tc main_arg7) = _
  after_results <;> rfl

/-- The first region leaves the hidden features in its result array. -/
theorem hidden_eq (c : Dev nD) : W2 m ρ c (Proc.devRef .tc main_v18)
    = hidden (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7)) := by
  refine (W2_arr m ρ c 6).trans ((Layer0.final (V1 m ρ) c).trans ?_)
  show Layer0.layer (V1 m ρ c main_v11) (V1 m ρ c main_v16) (V1 m ρ c main_v17) (V1 m ρ c main_arg5) (V1 m ρ c main_arg6)
    (V1 m ρ c main_arg7) = _
  rw [V1_agg, V1_cnt, V1_own, V1_arg5, V1_arg6, V1_arg7]
  rfl

/-! ## What the second region finds -/

/-- An argument array no segment before the second region writes is as launched there. -/
theorem W2_arg (c : Dev nD) (b : Ref sig .tc) (hb : ∀ w, Pipeline.arrRef spec0 w ≠ b)
    (h1 : W1 m ρ c (Proc.devRef .tc b) = m ((c : Thread nD τ).loc b)) :
    W2 m ρ c (Proc.devRef .tc b) = m ((c : Thread nD τ).loc b) :=
  (W2_of_ne m ρ c b hb).trans h1

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl

theorem V3_agg (c : Dev nD) : V3 m ρ c main_v28
    = agg1 (W2 m ρ c (Proc.devRef .tc main_v18)) (m ((c : Thread nD τ).loc main_arg3)) (m ((c : Thread nD τ).loc main_arg4)) := by
  show StableHlo.after hostOps1 (W2 m ρ c) (Proc.devRef .tc main_v28) = _
  after_results
  rw [W2_arg m ρ c main_arg3 (by decide) (W1_arg3 m ρ c), W2_arg m ρ c main_arg4 (by decide) (W1_arg4 m ρ c)]
  rfl

theorem V3_cnt (c : Dev nD) : V3 m ρ c main_v33
    = broadcastInDim S4096x1 ![0] bcast_S4096_S4096x1_0 (cnt1 (m ((c : Thread nD τ).loc main_arg4))) := by
  show StableHlo.after hostOps1 (W2 m ρ c) (Proc.devRef .tc main_v33) = _
  after_results
  rw [W2_arg m ρ c main_arg4 (by decide) (W1_arg4 m ρ c)]
  rfl

theorem V3_own (c : Dev nD) : V3 m ρ c main_v34
    = extractStridedSlice S4096x256 ![0, 0] (W2 m ρ c (Proc.devRef .tc main_v18)) slices_S50000x256_S4096x256_0_0 := by
  show StableHlo.after hostOps1 (W2 m ρ c) (Proc.devRef .tc main_v34) = _
  after_results <;> rfl

theorem V3_arg8 (c : Dev nD) : V3 m ρ c main_arg8 = m ((c : Thread nD τ).loc main_arg8) := by
  show StableHlo.after hostOps1 (W2 m ρ c) (Proc.devRef .tc main_arg8) = _
  after_results
  exact W2_arg m ρ c main_arg8 (by decide) (W1_arg8 m ρ c)
theorem V3_arg9 (c : Dev nD) : V3 m ρ c main_arg9 = m ((c : Thread nD τ).loc main_arg9) := by
  show StableHlo.after hostOps1 (W2 m ρ c) (Proc.devRef .tc main_arg9) = _
  after_results
  exact W2_arg m ρ c main_arg9 (by decide) (W1_arg9 m ρ c)
theorem V3_arg10 (c : Dev nD) : V3 m ρ c main_arg10 = m ((c : Thread nD τ).loc main_arg10) := by
  show StableHlo.after hostOps1 (W2 m ρ c) (Proc.devRef .tc main_arg10) = _
  after_results
  exact W2_arg m ρ c main_arg10 (by decide) (W1_arg10 m ρ c)

/-- The second region leaves the model's result in its result array. -/
theorem result_eq (c : Dev nD) : (dat1 (V3 m ρ) c).arrAt 6 cfg1.N
    = out (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (Layer1.final (V3 m ρ) c).trans ?_
  show Layer1.layer (V3 m ρ c main_v28) (V3 m ρ c main_v33) (V3 m ρ c main_v34) (V3 m ρ c main_arg8) (V3 m ρ c main_arg9)
    (V3 m ρ c main_arg10) = _
  rw [V3_agg, V3_cnt, V3_own, V3_arg8, V3_arg9, V3_arg10, hidden_eq]
  rfl

/-- THE KERNEL'S RUN: every weakly fair execution terminates with the result array at the model's function of the
    argument arrays, the arguments unchanged. -/
theorem run : θ_run defs (onTc (τ := τ) (main (F := Ideal))) ⟨m, fun _ => 0, ρ⟩ (fun r => ∀ c : Dev nD,
      r.2.mem ((c.tc : Thread nD τ).loc main_v35)
        = out (m ((c : Thread nD τ).loc main_arg0)) (m ((c : Thread nD τ).loc main_arg1)) (m ((c : Thread nD τ).loc main_arg2))
            (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_result m ρ)

end Cert.KernelIdeal.Whole

end
-- ==== Proof.ReferenceValue.lean ====
/-
  The idealized reference's result is the model's function of the argument arrays.

  The reference computes both layers with host operations on whole arrays: the same gather, scatter-adds and counts as the
  kernel's host side, then the division of each node's sum by its count joined with one (the counts joined BEFORE they are
  broadcast to a column, which reads the same at every index), the two products with the bias added between them, and the
  activation. Layer by layer its spelling is the layer function of the kernel's side: the grouping (M·Wl + b) + X·Wr against
  (M·Wl + X·Wr) + b is the commutativity and associativity of addition on the extended reals, and the reference's
  logarithm of the softmax along each row subtracts the row maximum and then the logarithm of the row sum exactly as the
  kernel does. The gather and scatter-adds are the same functions on both sides; the two programs' printed records of their
  dimension numbers are equal field by field.
-/
import proofs.«118974_j87256555586107_2_alg».proof.Proof.ReferenceRun
import proofs.«118974_j87256555586107_2_alg».proof.Proof.KernelValue
import proofs.«118974_j87256555586107_2_alg».proof.Proof.LibSageLayers
import proofs.«118974_j87256555586107_2_alg».proof.Proof.LibLogSoftmaxRows

set_option maxRecDepth 1000000

noncomputable section

namespace Cert.ReferenceIdeal.Model

open Idealize.ShloMosaic Idealize.ShloMosaic.TcCoe Idealize.SL.Sem Idealize.ShloMosaic.StableHlo
open Cert.ReferenceIdeal Cert.Lib.SageLayers

set_option maxHeartbeats 4000000 in
/-- The reference's composed term is the model's function of the argument arrays. -/
theorem res_eq (m : (ℓ : Loc nD τ sig) → Buf (Elt Ideal) ℓ) (c : Dev nD) :
    Cert.ReferenceIdeal.ValueP.res_main_v53 (F := Ideal) m c
      = Cert.KernelIdeal.Model.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.ValueP.res_main_v53
  rw [Cert.Lib.LogSoftmaxRows.host_eq]
  rw [host_conv dot_S4096x256_S256x64_S4096x64_1_0_0_1_n_n rfl rfl rfl rfl rfl rfl]
  rw [host_relu]
  rw [host_conv dot_S50000x128_S128x256_S50000x256_1_0_0_1_n_n rfl rfl rfl rfl rfl rfl]
  rfl

end Cert.ReferenceIdeal.Model

end
-- ==== Proof.lean ====
/- A two-layer graph network with mean aggregation: the kernel (two pallas_calls among host gathers and scatter-adds) against
   its plain reference, over the extended reals.

   Each layer sums, for every target node, the feature rows of its neighbours (a gather per edge and a scatter-add into
   zeros), counts the neighbours, divides the sum by the count joined with one, multiplies by a weight matrix, adds the
   node's own row times a second weight matrix and a bias, and applies an activation: a join with zero after the first
   layer, the logarithm of the softmax along each row after the second. The kernel computes the division, the products
   and the activation blockwise in two pallas_calls (5000 and 2048 rows per grid point) and the rest on the host; the
   reference computes everything on the host.

   On the extended reals both programs end with ONE function of the argument arrays, `Model.out`: a change of float format
   is the identity there, a product accumulated into zeros is the host's product, a block of rows of a layer is the same
   rows of the layer of the whole arrays, and the reference's grouping (M·Wl + b) + X·Wr is the kernel's
   (M·Wl + X·Wr) + b because addition on the extended reals is commutative and associative. No finiteness of the inputs is
   used. The idealization rewrote nothing, so the word-level kernel and its idealization are one text. -/
import proofs.«118974_j87256555586107_2_alg».proof.Defs
import proofs.«118974_j87256555586107_2_alg».proof.Proof.Gen.Kernel
import proofs.«118974_j87256555586107_2_alg».proof.Proof.Gen.Kernel.Skeleton
import proofs.«118974_j87256555586107_2_alg».proof.Proof.Gen.Kernel.Launch
import proofs.«118974_j87256555586107_2_alg».proof.Proof.Gen.Kernel.Points
import proofs.«118974_j87256555586107_2_alg».proof.Proof.Gen.Kernel.Frame
import proofs.«118974_j87256555586107_2_alg».proof.Proof.Gen.KernelIdeal
import proofs.«118974_j87256555586107_2_alg».proof.Proof.Gen.KernelIdeal.Skeleton
import proofs.«118974_j87256555586107_2_alg».proof.Proof.Gen.KernelIdeal.Launch
import proofs.«118974_j87256555586107_2_alg».proof.Proof.Gen.KernelIdeal.Points
import proofs.«118974_j87256555586107_2_alg».proof.Proof.Gen.KernelIdeal.Frame
import proofs.«118974_j87256555586107_2_alg».proof.Proof.Gen.ReferenceIdeal
import proofs.«118974_j87256555586107_2_alg».proof.Proof.Gen.Pre_finite_inputs
import proofs.«118974_j87256555586107_2_alg».proof.Proof.ReferenceRun
import proofs.«118974_j87256555586107_2_alg».proof.Proof.KernelValue
import proofs.«118974_j87256555586107_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs end with the model's function of the arguments in
    their result arrays. -/
theorem algebraic : Cert.algebraic_KernelIdeal_ReferenceIdeal := by
  intro m ρ m' ρ' _ hagree
  refine ⟨fun c => Cert.KernelIdeal.Model.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.Model.res_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
